-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S6x128 : Shape := ⟨2, ![6, 128]⟩
abbrev S128x128 : Shape := ⟨2, ![128, 128]⟩
abbrev S2x640000 : Shape := ⟨2, ![2, 640000]⟩
abbrev S640000 : Shape := ⟨1, ![640000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S6x128 : S_.BroadcastsInDim S6x128 (![] : Fin 0 → Fin S6x128.rank)
  reducesTo_S6x128_S_d0_1 : S6x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : FVec F S6x128 .f32) (main_arg2 : FVec F S128x128 .f32) (main_arg3 : FVec F S128x128 .f32) (main_arg4 : IVec S2x640000 32) (main_arg5 : IVec S640000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S6x128 .f32 := Host.absf main_arg1
  let main_cst_0 : FVec F S_ .f32 := constant S_ .f32 0x7F800000#32
  let main_v5 : FVec F S6x128 .f32 := broadcastInDim S6x128 ![] bcast_S_S6x128 main_cst_0
  let main_v6 : IVec S6x128 1 := cmpf .olt main_v4 main_v5
  let main_c_1 : IVec S_ 1 := constantI S_ 1 1#1
  let main_v7 : IVec S_ 1 := (fun x v => Host.reduce IntOp.andi x v reducesTo_S6x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S6x128 : Shape := ⟨2, ![6, 128]⟩
abbrev S128x128 : Shape := ⟨2, ![128, 128]⟩
abbrev S2x640000 : Shape := ⟨2, ![2, 640000]⟩
abbrev S640000 : Shape := ⟨1, ![640000]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S5000x128 : Shape := ⟨2, ![5000, 128]⟩

abbrev nBuf : Space → Nat
  | .hbm => 66
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S6x128, .f32⟩
  | .hbm, ⟨2, _⟩ => ⟨S128x128, .f32⟩
  | .hbm, ⟨3, _⟩ => ⟨S128x128, .f32⟩
  | .hbm, ⟨4, _⟩ => ⟨S2x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S640000, .f32⟩
  | .hbm, ⟨21, _⟩ => ⟨S_, .f32⟩
  | .hbm, ⟨22, _⟩ => ⟨S50000, .f32⟩
  | .hbm, ⟨23, _⟩ => ⟨S640000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S640000x128, .f32⟩
  | .hbm, ⟨42, _⟩ => ⟨S_, .f32⟩
  | .hbm, ⟨43, _⟩ => ⟨S50000x128, .f32⟩
  | .hbm, ⟨44, _⟩ => ⟨S640000x1, .i32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S640000x128, .f32⟩
  | .hbm, ⟨59, _⟩ => ⟨S_, .f32⟩
  | .hbm, ⟨60, _⟩ => ⟨S50000x128, .f32⟩
  | .hbm, ⟨61, _⟩ => ⟨S640000x1, .i32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000 : S_.BroadcastsInDim S50000 (![] : Fin 0 → Fin S50000.rank)
  shapeCasts_S50000_S50000x1 : S50000.ShapeCasts S50000x1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  gather_S6x128_S640000x1_S640000x128_1_0_n_n_0_1_1128_wf : GatherDims.WF S6x128 S640000x1 S640000x128 [1] [0] [] [0] [] 1 ![1, 128]
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S6x128_S640000x1_S640000x128_1_0_n_n_0_1_1128 : GatherDims S6x128 S640000x1 S640000x128 where
  offsetDims := [1]
  collapsedSliceDims := [0]
  operandBatchingDims := []
  startIndicesBatchingDims := []
  startIndexMap := [0]
  indexVectorDim := 1
  sliceSizes := ![1, 128]
  wf := gather_S6x128_S640000x1_S640000x128_1_0_n_n_0_1_1128_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S6x128 : Shape := ⟨2, ![6, 128]⟩
abbrev S128x128 : Shape := ⟨2, ![128, 128]⟩
abbrev S2x640000 : Shape := ⟨2, ![2, 640000]⟩
abbrev S640000 : Shape := ⟨1, ![640000]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S6x128, .f32⟩
  | .hbm, ⟨2, _⟩ => ⟨S128x128, .f32⟩
  | .hbm, ⟨3, _⟩ => ⟨S128x128, .f32⟩
  | .hbm, ⟨4, _⟩ => ⟨S2x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S640000x128, .f32⟩
  | .hbm, ⟨29, _⟩ => ⟨S_, .f32⟩
  | .hbm, ⟨30, _⟩ => ⟨S50000x128, .f32⟩
  | .hbm, ⟨31, _⟩ => ⟨S640000x1, .i32⟩
  | .hbm, ⟨32, _⟩ => ⟨S50000x128, .f32⟩
  | .hbm, ⟨33, _⟩ => ⟨S_, .f32⟩
  | .hbm, ⟨34, _⟩ => ⟨S640000, .f32⟩
  | .hbm, ⟨35, _⟩ => ⟨S_, .f32⟩
  | .hbm, ⟨36, _⟩ => ⟨S50000, .f32⟩
  | .hbm, ⟨37, _⟩ => ⟨S640000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x128, .f32⟩
  | .hbm, ⟨59, _⟩ => ⟨S_, .i32⟩
  | .hbm, ⟨60, _⟩ => ⟨S640000, .i32⟩
  | .hbm, ⟨61, _⟩ => ⟨S640000, .i1⟩
  | .hbm, ⟨62, _⟩ => ⟨S_, .i32⟩
  | .hbm, ⟨63, _⟩ => ⟨S640000, .i32⟩
  | .hbm, ⟨64, _⟩ => ⟨S640000, .i32⟩
  | .hbm, ⟨65, _⟩ => ⟨S640000, .i32⟩
  | .hbm, ⟨66, _⟩ => ⟨S640000x1, .i32⟩
  | .hbm, ⟨67, _⟩ => ⟨S640000x128, .f32⟩
  | .hbm, ⟨68, _⟩ => ⟨S640000x128, .f32⟩
  | .hbm, ⟨69, _⟩ => ⟨S_, .f32⟩
  | .hbm, ⟨70, _⟩ => ⟨S50000x128, .f32⟩
  | .hbm, ⟨71, _⟩ => ⟨S640000x1, .i32⟩
  | .hbm, ⟨72, _⟩ => ⟨S50000x128, .f32⟩
  | .hbm, ⟨73, _⟩ => ⟨S_, .f32⟩
  | .hbm, ⟨74, _⟩ => ⟨S640000, .f32⟩
  | .hbm, ⟨75, _⟩ => ⟨S_, .f32⟩
  | .hbm, ⟨76, _⟩ => ⟨S50000, .f32⟩
  | .hbm, ⟨77, _⟩ => ⟨S640000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_cst : Ref sig .tc := ⟨.hbm, 47, rfl⟩
abbrev main_call0_v0 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  gather_S6x128_S640000x1_S640000x128_1_0_n_n_0_1_1128_wf : GatherDims.WF S6x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S6x128_S640000x1_S640000x128_1_0_n_n_0_1_1128 : GatherDims S6x128 S640000x1 S640000x128 where
  offsetDims := [1]
  collapsedSliceDims := [0]
  operandBatchingDims := []
  startIndicesBatchingDims := []
  startIndexMap := [0]
  indexVectorDim := 1
  sliceSizes := ![1, 128]
  wf := gather_S6x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  Two rounds of relation-gated mean aggregation over a graph, as one function of the six argument arrays.

  The graph has 50000 nodes with 128 features each and 640000 edges; row 0 of the edge list holds each edge's source
  node, row 1 its destination, and a second list holds each edge's relation type, one of six, each with a 128-wide gate.
  Node numbers and relation numbers may be written negatively, counted from the end: a negative entry has the extent
  added to it before it is used (`wrap`).

  One round, from node features `feat`:
    * every edge e carries the message feat[src e, ·] · gate[rel e, ·];
    * `segSum`: node P collects the sum of the messages of the edges whose destination is P;
    * `degClamp`: P's in-degree (the same sum with every message 1), clamped below at one;
    * `meanAgg`: the collected sum divided by the clamped degree of its row;
    * `layer`: (feat + meanAgg) times a 128 × 128 weight matrix, clipped below at zero.
  `G` is two rounds, the second from the first's result, with the same edges and gates and its own weights.

  The names are those of the host program's own operations, so that the host program's result is `G` of its
  arguments by unfolding.
-/
import proofs.«110755_j4655744549232_1_alg».proof.ReferenceIdeal
import Idealize.ShloMosaic.PureOps.Ideal

noncomputable section

namespace Cert.Gnn

open Idealize.ShloMosaic Cert.ReferenceIdeal
open Cert.ReferenceIdeal.Facts₀

variable [Cert.ReferenceIdeal.Facts]

/-- Row 0 of the edge list, flat: each edge's source node. -/
def srcRow (ei : IVec S2x640000 32) : IVec S640000 32 :=
  shapeCast S640000 (extractStridedSlice S1x640000 ![0, 0] ei slices_S2x640000_S1x640000_0_0) shapeCasts_S1x640000_S640000

/-- Row 1 of the edge list, flat: each edge's destination node. -/
def dstRow (ei : IVec S2x640000 32) : IVec S640000 32 :=
  shapeCast S640000 (extractStridedSlice S1x640000 ![1, 0] ei slices_S2x640000_S1x640000_1_0) shapeCasts_S1x640000_S640000

/-- A number counted from the end (negative) has the extent `n` added to it. -/
def wrap (n : BitVec 32) (v : IVec S640000 32) : IVec S640000 32 :=
  select (cmpi .slt v (broadcastInDim S640000 ![] bcast_S_S640000 (constantI S_ 32 0#32)))
    (addi v (broadcastInDim S640000 ![] bcast_S_S640000 (constantI S_ 32 n))) v

/-- A flat list of numbers as a column of one-entry index vectors. -/
def column (v : IVec S640000 32) : IVec S640000x1 32 :=
  broadcastInDim S640000x1 ![0] bcast_S640000_S640000x1_0 v

/-- The row of the gate table each edge reads: its relation type's. -/
def gate (rel : FVec Ideal S6x128 .f32) (ea : IVec S640000 32) : FVec Ideal S640000x128 .f32 :=
  Host.gather gather_S6x128_S640000x1_S640000x128_1_0_n_n_0_1_1128 rel (column (wrap 6#32 ea))

/-- The in-degree of every node, clamped below at one. -/
def degClamp (dst : IVec S640000 32) : FVec Ideal S50000 .f32 :=
  maximumf
    (Host.scatterAdd scatter_S50000_S640000x1_S640000_n_0_0_1
      (broadcastInDim S50000 ![] bcast_S_S50000 (constant (F := Ideal) S_ .f32 0x00000000#32))
      (column dst)
      (broadcastInDim S640000 ![] bcast_S_S640000 (constant (F := Ideal) S_ .f32 0x3F800000#32)))
    (broadcastInDim S50000 ![] bcast_S_S50000 (constant (F := Ideal) S_ .f32 0x3F800000#32))

/-- Per node, the sum over its incoming edges of the source's features times the edge's gate. -/
def segSum (feat : FVec Ideal S50000x128 .f32) (src dst : IVec S640000 32) (g : FVec Ideal S640000x128 .f32) :
    FVec Ideal S50000x128 .f32 :=
  Host.scatterAdd scatter_S50000x128_S640000x1_S640000x128_1_0_0_1
    (broadcastInDim S50000x128 ![] bcast_S_S50000x128 (constant (F := Ideal) S_ .f32 0x00000000#32))
    (column dst)
    (mulf (Host.gather gather_S50000x128_S640000x1_S640000x128_1_0_n_n_0_1_1128 feat (column (wrap 50000#32 src))) g)

/-- The collected sums divided by the clamped degree of their row. -/
def meanAgg (feat : FVec Ideal S50000x128 .f32) (src dst : IVec S640000 32) (g : FVec Ideal S640000x128 .f32) :
    FVec Ideal S50000x128 .f32 :=
  Host.divf (segSum feat src dst g)
    (broadcastInDim S50000x128 ![0, 1] bcast_S50000x1_S50000x128_0_1
      (broadcastInDim S50000x1 ![0] bcast_S50000_S50000x1_0 (degClamp dst)))

/-- One round: the features plus their mean aggregate, times the weights, clipped below at zero. -/
def layer (feat : FVec Ideal S50000x128 .f32) (src dst : IVec S640000 32) (g : FVec Ideal S640000x128 .f32)
    (W : FVec Ideal S128x128 .f32) : FVec Ideal S50000x128 .f32 :=
  maximumf
    (Host.dotGeneral dot_S50000x128_S128x128_S50000x128_1_0_0_1_n_n none (addf feat (meanAgg feat src dst g)) W)
    (broadcastInDim S50000x128 ![] bcast_S_S50000x128 (constant (F := Ideal) S_ .f32 0x00000000#32))

/-- Two rounds over the same edges and gates. -/
def G (x : FVec Ideal S50000x128 .f32) (rel : FVec Ideal S6x128 .f32) (W1 W2 : FVec Ideal S128x128 .f32)
    (ei : IVec S2x640000 32) (ea : IVec S640000 32) : FVec Ideal S50000x128 .f32 :=
  layer (layer x (srcRow ei) (dstRow ei) (gate rel ea) W1) (srcRow ei) (dstRow ei) (gate rel ea) W2

end Cert.Gnn

end
-- ==== Proof.RefValue.lean ====
/-
  The host program's result is two rounds of gated mean aggregation of its arguments.

  The host program computes the source and destination rows, the gates and the clamped degrees once per round, each
  time by the same operations of the same arguments; written out, its result is the specification's `G` with every
  name unfolded.
-/
import proofs.«110755_j4655744549232_1_alg».proof.Proof.Gen.ReferenceIdeal.Run
import proofs.«110755_j4655744549232_1_alg».proof.Proof.Spec

set_option maxRecDepth 16384

noncomputable section

namespace Cert.Gnn.RefValue

open Idealize.ShloMosaic Idealize.ShloMosaic.TcCoe Idealize.SL.Sem
open Cert.ReferenceIdeal Cert.ReferenceIdeal.Gen Cert.ReferenceIdeal.Value

/-- The host program's composed result term is `G` of the six argument arrays. -/
theorem res_eq (m : (ℓ : Loc nD τ sig) → Buf (Elt Ideal) ℓ) (c : Dev nD) :
    res_out0 (F := Ideal) m c = Cert.Gnn.G (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  show res_main_v63 (F := Ideal) m c = _
  unfold res_main_v63 Cert.Gnn.G Cert.Gnn.layer Cert.Gnn.meanAgg Cert.Gnn.segSum Cert.Gnn.degClamp Cert.Gnn.gate
    Cert.Gnn.column Cert.Gnn.wrap Cert.Gnn.srcRow Cert.Gnn.dstRow
  rfl

end Cert.Gnn.RefValue

end
-- ==== Proof.KernelRun.lean ====
/-
  The run of the two-region program with its result kept.

  The program is four segments in a row: host operations, the first pipelined region, host operations, the second
  pipelined region. The buffers' contents at the end of the last segment are a fold through the four segments from
  the launch memory: a stretch of host operations applied to what it finds, a region's arrays at what its
  write-backs leave and every other buffer as the region found it. Every weakly fair execution terminates without a
  fault in a state whose unscoped buffers hold exactly that fold; read at the six argument arrays the fold walks back
  to the launch memory, and read at the result array it is what the second region's write-backs leave there — the
  statement below keeps that reading, which the frame claim alone drops.
-/
import proofs.«110755_j4655744549232_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents
    and the six argument arrays as launched. -/
theorem run_result : θ_run defs (onTc (τ := τ) (main (F := F))) ⟨m, fun _ => 0, ρ⟩ (fun r => ∀ c : Dev nD,
      r.2.mem ((c.tc : Thread nD τ).loc main_v47) = W4 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v47 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Run

end
-- ==== Proof.LibDenseLayers.lean ====
/-
  A bias-free perceptron on the extended reals, one layer at a time.

  A layer takes a matrix `h` of activations, one row per sample, and a weight matrix `w` already transposed to
  input × output, and forms the products of the rows of `h` with the columns of `w`: entry (p, q) of the product is
  the sum over c of h (p, c) · w (c, q), a finite sum on the extended reals with no rounding and no order left in it.
  A hidden layer clips the product below at zero; the last layer applies the logistic function 1 / (1 + e^(-x)).

  Three facts about these layers are all the mathematics that a comparison of a blocked evaluation with a whole one needs:
  * row p of the product depends on row p of `h` only, so a block of consecutive rows of a layer's result is the
    layer applied to that block of rows (`prod_rowBlock`, `hidden_rowBlock`, `outLayer_rowBlock`);
  * column q of the product depends on column q of `w` only, so columns added to `w` (a zero padding up to a full
    lane group) do not change the columns that were there (`prod_col`);
  * the matrix unit's product accumulated into a splat of zeros, and the host's product, are this product; the
    maximum with a splat of zero is the clip; and 1 / (1 + e^(-x)) spelt with the host's negate, exponential, add and
    divide is the logistic function (`matmulZero_eq_prod`, `hostDot_eq_prod`, `kernelHidden`, `hostHidden`,
    `kernelOut`, `hostOut`).
-/
import Idealize.ShloMosaic.Lib.StackMember
import Idealize.ShloMosaic.Lib.KernelVsHost
import Idealize.ShloMosaic.Lib.IdealHost

noncomputable section

namespace Cert.Mlp

open Idealize.ShloMosaic Idealize.ShloMosaic.ValueIdx

/-- The shape of an `a × b` matrix. -/
abbrev Mat (a b : Nat) : Shape := ⟨2, ![a, b]⟩

/-- Rows of `h` against columns of `w`: entry (p, q) is the sum over c of h (p, c) · w (c, q). -/
def prod {a k n : Nat} (h : (Mat a k).Idx → EReal) (w : (Mat k n).Idx → EReal) : (Mat a n).Idx → EReal :=
  fun i => ∑ c : Fin k, h (ix2 (i 0 : Fin a) c) * w (ix2 c (i 1 : Fin n))

/-- A hidden layer: the product clipped below at zero. -/
def hidden {a k n : Nat} (h : (Mat a k).Idx → EReal) (w : (Mat k n).Idx → EReal) : (Mat a n).Idx → EReal :=
  fun i => max (prod h w i) 0

/-- The last layer: the logistic function of the product. -/
def outLayer {a k n : Nat} (h : (Mat a k).Idx → EReal) (w : (Mat k n).Idx → EReal) : (Mat a n).Idx → EReal :=
  fun i => Ideal.logistic (prod h w i)

theorem prod_apply {a k n : Nat} (h : (Mat a k).Idx → EReal) (w : (Mat k n).Idx → EReal) (p : Fin a) (q : Fin n) :
    prod h w (ix2 p q) = ∑ c : Fin k, h (ix2 p c) * w (ix2 c q) := rfl

/-! ## Blocks of rows -/

/-- Rows `off, …, off + b − 1` of a matrix of `a` rows. -/
def rowBlock {α : Type} {a n : Nat} (b off : Nat) (hle : off + b ≤ a) (X : (Mat a n).Idx → α) : (Mat b n).Idx → α :=
  fun y => X (ix2 (⟨off + (y 0).val, by have := idx2_lt0 y; omega⟩ : Fin a) (y 1 : Fin n))

theorem rowBlock_apply {α : Type} {a n : Nat} (b off : Nat) (hle : off + b ≤ a) (X : (Mat a n).Idx → α)
    (p : Fin b) (q : Fin n) :
    rowBlock b off hle X (ix2 p q) = X (ix2 (⟨off + p.val, by have := p.isLt; omega⟩ : Fin a) q) := rfl

/-- An entry of a block of rows, named by its coordinates in the whole matrix. -/
theorem rowBlock_read {α : Type} {a n : Nat} (b off : Nat) (hle : off + b ≤ a) (X : (Mat a n).Idx → α)
    (y : (Mat b n).Idx) (i : (Mat a n).Idx) (h0 : (i 0).val = off + (y 0).val) (h1 : (i 1).val = (y 1).val) :
    rowBlock b off hle X y = X i := by
  unfold rowBlock
  refine congrArg X (funext fun d => Fin.ext ?_)
  match d with
  | ⟨0, _⟩ => exact h0.symm
  | ⟨1, _⟩ => exact h1.symm

/-- A block of rows of a product is the product of that block of rows. -/
theorem prod_rowBlock {a k n : Nat} (b off : Nat) (hle : off + b ≤ a) (h : (Mat a k).Idx → EReal)
    (w : (Mat k n).Idx → EReal) : prod (rowBlock b off hle h) w = rowBlock b off hle (prod h w) := rfl

theorem hidden_rowBlock {a k n : Nat} (b off : Nat) (hle : off + b ≤ a) (h : (Mat a k).Idx → EReal)
    (w : (Mat k n).Idx → EReal) : hidden (rowBlock b off hle h) w = rowBlock b off hle (hidden h w) := rfl

theorem outLayer_rowBlock {a k n : Nat} (b off : Nat) (hle : off + b ≤ a) (h : (Mat a k).Idx → EReal)
    (w : (Mat k n).Idx → EReal) : outLayer (rowBlock b off hle h) w = rowBlock b off hle (outLayer h w) := rfl

/-! ## Columns -/

/-- A column of the product depends on that column of the weights only. -/
theorem prod_col {a k n n' : Nat} (h : (Mat a k).Idx → EReal) (w : (Mat k n).Idx → EReal) (w' : (Mat k n').Idx → EReal)
    (q : Fin n) (q' : Fin n') (hw : ∀ c : Fin k, w' (ix2 c q') = w (ix2 c q)) (p : Fin a) :
    prod h w' (ix2 p q') = prod h w (ix2 p q) := by
  rw [prod_apply, prod_apply]
  exact Finset.sum_congr rfl fun c _ => by rw [hw c]

theorem outLayer_col {a k n n' : Nat} (h : (Mat a k).Idx → EReal) (w : (Mat k n).Idx → EReal) (w' : (Mat k n').Idx → EReal)
    (q : Fin n) (q' : Fin n') (hw : ∀ c : Fin k, w' (ix2 c q') = w (ix2 c q)) (p : Fin a) :
    outLayer h w' (ix2 p q') = outLayer h w (ix2 p q) :=
  congrArg Ideal.logistic (prod_col h w w' q q' hw p)

/-! ## The printed operations are these layers -/

/-- A change of float format changes no value. -/
theorem truncf_id {s : Shape} {φ ψ : FTy} (x : FVec Ideal s φ) (h : ψ.bits < φ.bits) :
    @Eq (s.Idx → EReal) (truncf ψ x h) x := rfl

/-- The host's product of an a×k by a k×n matrix. -/
theorem hostDot_eq_prod {a k n : Nat} {φ₁ φ₂ : FTy} (D : DotDims (Mat a k) (Mat k n) (Mat a n))
    (hD : D = DotDims.plain a k n) (prec : Option ContractPrecision)
    (H : FVec Ideal (Mat a k) φ₁) (W : FVec Ideal (Mat k n) φ₂) :
    (Host.dotGeneral D prec H W : (Mat a n).Idx → EReal) = prod H W := by
  subst hD
  funext i
  obtain ⟨p, q, rfl⟩ : ∃ (p : Fin a) (q : Fin n), i = ix2 p q := ⟨i 0, i 1, eq_ix2 i⟩
  exact StackMember.dotGeneral_plain_apply prec H W p q

/-- The matrix unit's product accumulated into a splat of zeros: the accumulator contributes `0 + ·`. -/
theorem matmulZero_eq_prod {a k n : Nat} {φ₁ φ₂ : FTy} (D : DotDims (Mat a k) (Mat k n) (Mat a n))
    (hD : D = DotDims.plain a k n) (prec : Option ContractPrecision)
    (H : FVec Ideal (Mat a k) φ₁) (W : FVec Ideal (Mat k n) φ₂) :
    (matmul D prec H W (constant (F := Ideal) (Mat a n) .f32 0x00000000#32) : (Mat a n).Idx → EReal) = prod H W := by
  rw [matmul_zero_eq_dotGeneral]
  exact hostDot_eq_prod D hD prec H W

/-- A host hidden layer: the maximum of the host's product with an array that is zero everywhere. -/
theorem hostHidden {a k n : Nat} {φ₁ φ₂ : FTy} (D : DotDims (Mat a k) (Mat k n) (Mat a n))
    (hD : D = DotDims.plain a k n) (prec : Option ContractPrecision)
    (H : FVec Ideal (Mat a k) φ₁) (W : FVec Ideal (Mat k n) φ₂) (z : FVec Ideal (Mat a n) .f32) (hz : ∀ i, z i = 0) :
    (maximumf (Host.dotGeneral D prec H W) z : (Mat a n).Idx → EReal) = hidden H W := by
  funext i
  show max (Host.dotGeneral D prec H W i) (z i) = max (prod H W i) 0
  rw [hostDot_eq_prod D hD prec H W, hz]

/-- A kernel hidden layer: the matrix unit's product into zeros, the maximum with the splat of the zero word, and a
    narrowing of the format, which changes no value. -/
theorem kernelHidden {a k n : Nat} {φ₁ φ₂ : FTy} (D : DotDims (Mat a k) (Mat k n) (Mat a n))
    (hD : D = DotDims.plain a k n) (prec : Option ContractPrecision)
    (H : FVec Ideal (Mat a k) φ₁) (W : FVec Ideal (Mat k n) φ₂) (hb : FTy.bits .bf16 < FTy.bits .f32) :
    (truncf .bf16 (maximumf (matmul D prec H W (constant (F := Ideal) (Mat a n) .f32 0x00000000#32))
        (broadcast (Mat a n) (Scalar.ofBits (F := Ideal) .f32 0x00000000#32))) hb : (Mat a n).Idx → EReal) = hidden H W := by
  funext i
  show max (matmul D prec H W (constant (F := Ideal) (Mat a n) .f32 0x00000000#32) i) (Ideal.ofBits .f32 0x00000000#32)
    = max (prod H W i) 0
  rw [matmulZero_eq_prod D hD prec H W, Ideal.ofBits_zero_f32]

/-- The kernel's last layer: the logistic function of the matrix unit's product into zeros. -/
theorem kernelOut {a k n : Nat} {φ₁ φ₂ : FTy} (D : DotDims (Mat a k) (Mat k n) (Mat a n))
    (hD : D = DotDims.plain a k n) (prec : Option ContractPrecision)
    (H : FVec Ideal (Mat a k) φ₁) (W : FVec Ideal (Mat k n) φ₂) :
    (logistic (matmul D prec H W (constant (F := Ideal) (Mat a n) .f32 0x00000000#32)) : (Mat a n).Idx → EReal)
      = outLayer H W := by
  funext i
  show Ideal.logistic (matmul D prec H W (constant (F := Ideal) (Mat a n) .f32 0x00000000#32) i) = Ideal.logistic (prod H W i)
  rw [matmulZero_eq_prod D hD prec H W]

/-- The host's last layer: 1 / (1 + e^(-x)) spelt with negate, exponential, add and divide, the two ones arrays that
    are one everywhere. -/
theorem hostOut {a k n : Nat} {φ₁ φ₂ : FTy} (D : DotDims (Mat a k) (Mat k n) (Mat a n))
    (hD : D = DotDims.plain a k n) (prec : Option ContractPrecision)
    (H : FVec Ideal (Mat a k) φ₁) (W : FVec Ideal (Mat k n) φ₂) (one one' : FVec Ideal (Mat a n) .f32)
    (h1 : ∀ i, one i = 1) (h1' : ∀ i, one' i = 1) :
    (Host.divf one (addf one' (Host.exp (Host.negf (Host.dotGeneral D prec H W)))) : (Mat a n).Idx → EReal)
      = outLayer H W := by
  funext i
  show Ideal.div (one i) (one' i + Ideal.exp (-(Host.dotGeneral D prec H W i))) = Ideal.div 1 (1 + Ideal.exp (-(prod H W i)))
  rw [hostDot_eq_prod D hD prec H W, h1, h1']

end Cert.Mlp

end
-- ==== Proof.RegionValue.lean ====
/-
  What each pipelined region leaves in its result array, as one function of the arrays it finds.

  A region walks ten grid points; at point t it fetches rows 5000 t … 5000 t + 4999 of the features' array and of the
  aggregate's array and the whole 128 × 128 weight matrix, forms (features + aggregate) · weights on those rows,
  clips it below at zero and writes the 5000 × 128 result back to the same rows of the result array. A row of a
  matrix product depends on that row of the left factor only, so the block written back at point t is rows
  5000 t … 5000 t + 4999 of the layer formed on the WHOLE arrays; row r is written by point r / 5000, so the ten
  blocks cover the array, and the array ends holding the whole layer. The two changes of float format on the way into
  the matrix unit change no value on the extended reals, the product accumulated into zeros is the plain product, and
  the re-cast of a block to its own shape is the block.
-/
import proofs.«110755_j4655744549232_1_alg».proof.Proof.Gen.KernelIdeal.Frame
import proofs.«110755_j4655744549232_1_alg».proof.Proof.LibDenseLayers
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.Mlp

/-- One layer on `a` rows: features plus aggregate, times the weights, clipped below at zero. -/
def combine {a : ℕ} (X A : FVec Ideal (Mat a 128) .f32) (W : FVec Ideal (Mat 128 128) .f32) : FVec Ideal (Mat a 128) .f32 :=
  hidden (addf X A : FVec Ideal (Mat a 128) .f32) W

/-- Rows off … off + b − 1 of a layer are the layer of those rows of the features and of the aggregate. -/
theorem combine_rowBlock {a : ℕ} (b off : ℕ) (hle : off + b ≤ a) (X A : FVec Ideal (Mat a 128) .f32)
    (W : FVec Ideal (Mat 128 128) .f32) :
    combine (rowBlock b off hle X) (rowBlock b off hle A) W = rowBlock b off hle (combine X A W) := rfl

theorem hz : (![0, 0] : Fin 2 → Nat) = fun _ => 0 := funext fun a => by fin_cases a <;> rfl

/-- The first region's body: the aggregate's block re-cast to its own shape, added to the features' block, narrowed;
    the weights narrowed; the matrix unit's product into zeros; the maximum with the splat of zero. -/
theorem body_eq {b : ℕ} (D : DotDims (Mat b 128) (Mat 128 128) (Mat b 128)) (hD : D = DotDims.plain b 128 128)
    (hc : (Mat b 128).ShapeCasts (Mat b 128)) (hb : FTy.bits .bf16 < FTy.bits .f32)
    (x0 x1 : FVec Ideal (Mat b 128) .f32) (x2 : FVec Ideal (Mat 128 128) .f32) :
    (maximumf (matmul D none (truncf .bf16 (addf x0 (shapeCast (Mat b 128) x1 hc)) hb) (truncf .bf16 x2 hb)
        (constant (F := Ideal) (Mat b 128) .f32 0x00000000#32))
      (broadcast (Mat b 128) (Scalar.ofBits (F := Ideal) .f32 0x00000000#32)) : (Mat b 128).Idx → EReal)
      = combine x0 x1 x2 := by
  funext i
  show max (matmul D none (addf x0 (shapeCast (Mat b 128) x1 hc)) x2 (constant (F := Ideal) (Mat b 128) .f32 0x00000000#32) i)
      (Ideal.ofBits .f32 0x00000000#32) = max (prod (addf x0 x1 : FVec Ideal (Mat b 128) .f32) x2 i) 0
  rw [matmulZero_eq_prod D hD none _ _, Ideal.ofBits_zero_f32, shapeCast_self]

/-- The second region's body: as the first, with the features' block re-cast to its own shape as well. -/
theorem body_eq' {b : ℕ} (D : DotDims (Mat b 128) (Mat 128 128) (Mat b 128)) (hD : D = DotDims.plain b 128 128)
    (hc : (Mat b 128).ShapeCasts (Mat b 128)) (hb : FTy.bits .bf16 < FTy.bits .f32)
    (x0 x1 : FVec Ideal (Mat b 128) .f32) (x2 : FVec Ideal (Mat 128 128) .f32) :
    (maximumf (matmul D none (truncf .bf16 (addf (shapeCast (Mat b 128) x0 hc) (shapeCast (Mat b 128) x1 hc)) hb) (truncf .bf16 x2 hb)
        (constant (F := Ideal) (Mat b 128) .f32 0x00000000#32))
      (broadcast (Mat b 128) (Scalar.ofBits (F := Ideal) .f32 0x00000000#32)) : (Mat b 128).Idx → EReal)
      = combine x0 x1 x2 := by
  funext i
  show max (matmul D none (addf (shapeCast (Mat b 128) x0 hc) (shapeCast (Mat b 128) x1 hc)) x2 (constant (F := Ideal) (Mat b 128) .f32 0x00000000#32) i)
      (Ideal.ofBits .f32 0x00000000#32) = max (prod (addf x0 x1 : FVec Ideal (Mat b 128) .f32) x2 i) 0
  rw [matmulZero_eq_prod D hD none _ _, Ideal.ofBits_zero_f32, shapeCast_self, shapeCast_self]

-- the contents the region finds: a parameter, instantiated per region by the run
variable (V : (c : Dev nD) → (b : Ref sig .tc) → Buf (Elt Ideal) ((c : Thread nD τ).loc b))

/-! ## Region 0 -/

/-- The body's arithmetic of its three loaded blocks is the layer of those blocks. -/
theorem pay0_eq (x0 x1 : Vec Ideal S5000x128 .f32) (x2 : Vec Ideal S128x128 .f32) :
    (k0_pay1 (F := Ideal) x0 x1 x2 : S5000x128.Idx → EReal) = combine x0 x1 x2 :=
  body_eq _ rfl _ _ x0 x1 x2

/-- The printed index maps, decided over the ten grid points: the three row-blocked windows are at block row `t`,
    the weights' window stays at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem rows0_le (t : Fin cfg0.N) : t.val * 5000 + 5000 ≤ 50000 := by
  have hN : cfg0.N = 10 := N_0
  have := t.isLt
  omega

/-- The features' block at point `t` is rows 5000 t … 5000 t + 4999 of the features' array. -/
theorem blk0_0 (A : FVec Ideal S50000x128 .f32) (t : Fin cfg0.N) :
    ((cfg0.win 0).blk t).view.read (Elt Ideal) A = rowBlock 5000 (t.val * 5000) (rows0_le t) A := by
  obtain ⟨e0, e1, -⟩ := idx0 t
  funext y
  refine (rowBlock_read 5000 (t.val * 5000) (rows0_le t) A y (((cfg0.win 0).blk t).view.emb y) ?_ ?_).symm
  · show win0_0.index t (0 : Fin 2) * 5000 + 1 * (y 0).val = t.val * 5000 + (y 0).val
    rw [e0]; omega
  · show win0_0.index t (1 : Fin 2) * 128 + 1 * (y 1).val = (y 1).val
    rw [e1]; omega

/-- The aggregate's block at point `t` is the same rows of the aggregate's array. -/
theorem blk0_1 (A : FVec Ideal S50000x128 .f32) (t : Fin cfg0.N) :
    ((cfg0.win 1).blk t).view.read (Elt Ideal) A = rowBlock 5000 (t.val * 5000) (rows0_le t) A := by
  obtain ⟨-, -, e0, e1, -⟩ := idx0 t
  funext y
  refine (rowBlock_read 5000 (t.val * 5000) (rows0_le t) A y (((cfg0.win 1).blk t).view.emb y) ?_ ?_).symm
  · show win0_1.index t (0 : Fin 2) * 5000 + 1 * (y 0).val = t.val * 5000 + (y 0).val
    rw [e0]; omega
  · show win0_1.index t (1 : Fin 2) * 128 + 1 * (y 1).val = (y 1).val
    rw [e1]; omega

/-- The weights' block at every point is the whole weight matrix. -/
theorem blk0_2 (W : FVec Ideal S128x128 .f32) (t : Fin cfg0.N) :
    ((cfg0.win 2).blk t).view.read (Elt Ideal) W = W := by
  obtain ⟨-, -, -, -, e0, e1, -⟩ := idx0 t
  funext y
  show W (((cfg0.win 2).blk t).view.emb y) = W y
  refine congrArg W (funext fun a => Fin.ext ?_)
  match a with
  | ⟨0, _⟩ =>
    show win0_2.index t (0 : Fin 2) * 128 + 1 * (y 0).val = (y 0).val
    rw [e0]; omega
  | ⟨1, _⟩ =>
    show win0_2.index t (1 : Fin 2) * 128 + 1 * (y 1).val = (y 1).val
    rw [e1]; omega

/-- The result's block at point `t` is the same rows of the result's array. -/
theorem blk0_3 (A : FVec Ideal S50000x128 .f32) (t : Fin cfg0.N) :
    ((cfg0.win 3).blk t).view.read (Elt Ideal) A = rowBlock 5000 (t.val * 5000) (rows0_le t) A := by
  obtain ⟨-, -, -, -, -, -, e0, e1⟩ := idx0 t
  funext y
  refine (rowBlock_read 5000 (t.val * 5000) (rows0_le t) A y (((cfg0.win 3).blk t).view.emb y) ?_ ?_).symm
  · show win0_3.index t (0 : Fin 2) * 5000 + 1 * (y 0).val = t.val * 5000 + (y 0).val
    rw [e0]; omega
  · show win0_3.index t (1 : Fin 2) * 128 + 1 * (y 1).val = (y 1).val
    rw [e1]; omega

/-- What point `t` writes back is rows 5000 t … 5000 t + 4999 of the layer of the whole arrays: a row of the layer
    depends on that row of the features and of the aggregate only. -/
theorem flushed0 (c : Dev nD) (t : Fin cfg0.N) :
    (dat0 V c).flushed 3 t
      = ((cfg0.win 3).blk t).view.read (Elt Ideal) (combine (V c main_arg0) (V c main_v32) (V c main_arg2)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  rw [pay0_eq]
  unfold iblk0
  rw [blk0_3]
  show combine (((cfg0.win 0).blk t).view.read (Elt Ideal) (V c main_arg0))
      (((cfg0.win 1).blk t).view.read (Elt Ideal) (V c main_v32)) (((cfg0.win 2).blk t).view.read (Elt Ideal) (V c main_arg2)) = _
  rw [blk0_0, blk0_1, blk0_2, combine_rowBlock]

/-- An index of the result's array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v33).slice (win0_3.rect t)).set ↔ _
  rw [View.set_slice_whole, Rect.mem_set_unit]
  exact Iff.rfl

/-- Row r of the result's array is written back by point r / 5000: the ten blocks cover the array. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, e0, e1⟩ := idx0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]
    omega

/-- After the region its result array holds the layer of the arrays the region found. -/
theorem final0 (c : Dev nD) :
    (dat0 V c).arrAt 3 cfg0.N = combine (V c main_arg0) (V c main_v32) (V c main_arg2) :=
  (dat0 V c).arrAt_eq_of_cover 3 _ (fun t _ => flushed0 V c t) cover0

/-! ## Region 1 -/

/-- The body's arithmetic of its three loaded blocks is the layer of those blocks. -/
theorem pay1_eq (x0 x1 : Vec Ideal S5000x128 .f32) (x2 : Vec Ideal S128x128 .f32) :
    (k1_pay1 (F := Ideal) x0 x1 x2 : S5000x128.Idx → EReal) = combine x0 x1 x2 :=
  body_eq' _ rfl _ _ x0 x1 x2

/-- The printed index maps, decided over the ten grid points: the three row-blocked windows are at block row `t`,
    the weights' window stays at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem rows1_le (t : Fin cfg1.N) : t.val * 5000 + 5000 ≤ 50000 := by
  have hN : cfg1.N = 10 := N_1
  have := t.isLt
  omega

/-- The features' block at point `t` is rows 5000 t … 5000 t + 4999 of the features' array. -/
theorem blk1_0 (A : FVec Ideal S50000x128 .f32) (t : Fin cfg1.N) :
    ((cfg1.win 0).blk t).view.read (Elt Ideal) A = rowBlock 5000 (t.val * 5000) (rows1_le t) A := by
  obtain ⟨e0, e1, -⟩ := idx1 t
  funext y
  refine (rowBlock_read 5000 (t.val * 5000) (rows1_le t) A y (((cfg1.win 0).blk t).view.emb y) ?_ ?_).symm
  · show win1_0.index t (0 : Fin 2) * 5000 + 1 * (y 0).val = t.val * 5000 + (y 0).val
    rw [e0]; omega
  · show win1_0.index t (1 : Fin 2) * 128 + 1 * (y 1).val = (y 1).val
    rw [e1]; omega

/-- The aggregate's block at point `t` is the same rows of the aggregate's array. -/
theorem blk1_1 (A : FVec Ideal S50000x128 .f32) (t : Fin cfg1.N) :
    ((cfg1.win 1).blk t).view.read (Elt Ideal) A = rowBlock 5000 (t.val * 5000) (rows1_le t) A := by
  obtain ⟨-, -, e0, e1, -⟩ := idx1 t
  funext y
  refine (rowBlock_read 5000 (t.val * 5000) (rows1_le t) A y (((cfg1.win 1).blk t).view.emb y) ?_ ?_).symm
  · show win1_1.index t (0 : Fin 2) * 5000 + 1 * (y 0).val = t.val * 5000 + (y 0).val
    rw [e0]; omega
  · show win1_1.index t (1 : Fin 2) * 128 + 1 * (y 1).val = (y 1).val
    rw [e1]; omega

/-- The weights' block at every point is the whole weight matrix. -/
theorem blk1_2 (W : FVec Ideal S128x128 .f32) (t : Fin cfg1.N) :
    ((cfg1.win 2).blk t).view.read (Elt Ideal) W = W := by
  obtain ⟨-, -, -, -, e0, e1, -⟩ := idx1 t
  funext y
  show W (((cfg1.win 2).blk t).view.emb y) = W y
  refine congrArg W (funext fun a => Fin.ext ?_)
  match a with
  | ⟨0, _⟩ =>
    show win1_2.index t (0 : Fin 2) * 128 + 1 * (y 0).val = (y 0).val
    rw [e0]; omega
  | ⟨1, _⟩ =>
    show win1_2.index t (1 : Fin 2) * 128 + 1 * (y 1).val = (y 1).val
    rw [e1]; omega

/-- The result's block at point `t` is the same rows of the result's array. -/
theorem blk1_3 (A : FVec Ideal S50000x128 .f32) (t : Fin cfg1.N) :
    ((cfg1.win 3).blk t).view.read (Elt Ideal) A = rowBlock 5000 (t.val * 5000) (rows1_le t) A := by
  obtain ⟨-, -, -, -, -, -, e0, e1⟩ := idx1 t
  funext y
  refine (rowBlock_read 5000 (t.val * 5000) (rows1_le t) A y (((cfg1.win 3).blk t).view.emb y) ?_ ?_).symm
  · show win1_3.index t (0 : Fin 2) * 5000 + 1 * (y 0).val = t.val * 5000 + (y 0).val
    rw [e0]; omega
  · show win1_3.index t (1 : Fin 2) * 128 + 1 * (y 1).val = (y 1).val
    rw [e1]; omega

/-- What point `t` writes back is rows 5000 t … 5000 t + 4999 of the layer of the whole arrays: a row of the layer
    depends on that row of the features and of the aggregate only. -/
theorem flushed1 (c : Dev nD) (t : Fin cfg1.N) :
    (dat1 V c).flushed 3 t
      = ((cfg1.win 3).blk t).view.read (Elt Ideal) (combine (V c main_v33) (V c main_v46) (V c main_arg3)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz]
  rw [pay1_eq]
  unfold iblk1
  rw [blk1_3]
  show combine (((cfg1.win 0).blk t).view.read (Elt Ideal) (V c main_v33))
      (((cfg1.win 1).blk t).view.read (Elt Ideal) (V c main_v46)) (((cfg1.win 2).blk t).view.read (Elt Ideal) (V c main_arg3)) = _
  rw [blk1_0, blk1_1, blk1_2, combine_rowBlock]

/-- An index of the result's array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v47).slice (win1_3.rect t)).set ↔ _
  rw [View.set_slice_whole, Rect.mem_set_unit]
  exact Iff.rfl

/-- Row r of the result's array is written back by point r / 5000: the ten blocks cover the array. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, e0, e1⟩ := idx1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e1]
    omega

/-- After the region its result array holds the layer of the arrays the region found. -/
theorem final1 (c : Dev nD) :
    (dat1 V c).arrAt 3 cfg1.N = combine (V c main_v33) (V c main_v46) (V c main_arg3) :=
  (dat1 V c).arrAt_eq_of_cover 3 _ (fun t _ => flushed1 V c t) cover1

end Cert.KernelIdeal.RegionValue

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibColumnInDim.lean ====
/-
  The column forms of `broadcast_in_dim`, read at an index given by coordinates: a vector `[n]` laid as the column
  `[n, 1]` (its axis sent to axis 0), and a column `[n, 1]` repeated along the rows to `[n, b]` (axes sent to
  themselves). This is how a per-row quantity — a row sum, a norm, a degree — is spread over a matrix when it is
  written `v[:, None]`: both read the operand at the row coordinate alone. (`n ≠ 1`: on an axis of extent one
  a broadcast reads coordinate 0 whatever the index, and the statements would need no hypothesis but another proof.)
-/
import Idealize.ShloMosaic.Lib.Pipeline.Value
import Idealize.ShloMosaic.Lib.ValueIdx

namespace Cert.Lib.ColumnInDim

open Idealize.ShloMosaic Idealize.ShloMosaic.ValueIdx

variable {α : Type}

/-- A vector `[n]` laid as the column `[n, 1]` reads, at `(P, u)`, the vector at `P`. -/
theorem column_apply {n : ℕ} (hn : n ≠ 1) (h : (⟨1, ![n]⟩ : Shape).BroadcastsInDim ⟨2, ![n, 1]⟩ ![0])
    (v : (⟨1, ![n]⟩ : Shape).Idx → α) (P : Fin n) (u : Fin 1) :
    broadcastInDim ⟨2, ![n, 1]⟩ ![0] h v (ix2 P u) = v (ix1 P) :=
  broadcastInDim_apply _ h v (ix2 P u) (ix1 P) (fun a => match a with
    | ⟨0, _⟩ => by show P.val = if n = 1 then 0 else P.val; rw [if_neg hn])

/-- A column `[n, 1]` repeated along the rows to `[n, b]` reads, at `(P, q)`, the column's entry of row `P`. -/
theorem spread_apply {n b : ℕ} (hn : n ≠ 1) (h : (⟨2, ![n, 1]⟩ : Shape).BroadcastsInDim ⟨2, ![n, b]⟩ ![0, 1])
    (v : (⟨2, ![n, 1]⟩ : Shape).Idx → α) (P : Fin n) (q : Fin b) :
    broadcastInDim ⟨2, ![n, b]⟩ ![0, 1] h v (ix2 P q) = v (ix2 P (0 : Fin 1)) :=
  broadcastInDim_apply _ h v (ix2 P q) (ix2 P (0 : Fin 1)) (fun a => match a with
    | ⟨0, _⟩ => by show P.val = if n = 1 then 0 else P.val; rw [if_neg hn]
    | ⟨1, _⟩ => by show 0 = if (1 : ℕ) = 1 then 0 else q.val; rw [if_pos rfl])

end Cert.Lib.ColumnInDim
-- ==== Proof.LibReshapeColumn.lean ====
/-
  A vector laid out as a column, two ways.

  A reshape of a vector `[n]` to the column `[n, 1]` and a `broadcast_in_dim` of the same vector along axis 0 into
  `[n, 1]` are one array: both read, at `(P, 0)`, the vector at `P`. This is `v.reshape(n, 1)` against `v[:, None]`.
  (`n ≠ 1`, as for the column form of the broadcast.)
-/
import proofs.«110755_j4655744549232_1_alg».proof.Proof.LibKeepdims
import proofs.«110755_j4655744549232_1_alg».proof.Proof.LibColumnInDim

namespace Cert.Lib.ReshapeColumn

open Idealize.ShloMosaic Idealize.ShloMosaic.ValueIdx

variable {α : Type}

/-- Every index of `[n, 1]` is `(P, u)` for its two coordinates. -/
theorem exists_ix2 {a b : ℕ} (i : (⟨2, ![a, b]⟩ : Shape).Idx) : ∃ (p : Fin a) (q : Fin b), i = ix2 p q :=
  ⟨i 0, i 1, eq_ix2 i⟩

/-- The reshape `[n] → [n, 1]` is the broadcast of the vector along axis 0 into `[n, 1]`. -/
theorem shapeCast_eq_inDim {n : ℕ} (hn : n ≠ 1) (v : (⟨1, ![n]⟩ : Shape).Idx → α)
    (h : (⟨1, ![n]⟩ : Shape).ShapeCasts ⟨2, ![n, 1]⟩) (h' : (⟨1, ![n]⟩ : Shape).BroadcastsInDim ⟨2, ![n, 1]⟩ ![0]) :
    shapeCast ⟨2, ![n, 1]⟩ v h = broadcastInDim ⟨2, ![n, 1]⟩ ![0] h' v := by
  funext i
  obtain ⟨p, u, rfl⟩ := exists_ix2 i
  rw [Cert.Keepdims.shapeCast_a_a1_apply, Cert.Lib.ColumnInDim.column_apply hn]

end Cert.Lib.ReshapeColumn
-- ==== Proof.LibScaleSum.lean ====
/-
  Three small facts about the extended reals as the ideal float values, for certificates where one side scales a
  matrix product's weights (or a whole sum) by a constant and the other scales afterwards, or where one side divides and
  the other multiplies by a reciprocal.

  * A nonnegative real factor moves inside a finite sum of extended reals — also when the sum meets ⊤ + ⊥, because a
    nonnegative real factor distributes over every sum of two extended reals.
  * The ideal division by a divisor that is not zero is the product with the inverse.
  * A value clamped below by one (a count, a norm with a floor) is not zero.
-/
import Idealize.ShloMosaic.PureOps.Ideal

noncomputable section

namespace Cert.Lib.ScaleSum

open Idealize.ShloMosaic

/-- A nonnegative real factor moves inside a finite sum of extended reals. -/
theorem coe_mul_sum {ι : Type} (s : Finset ι) (h : ℝ) (hh : 0 ≤ h) (f : ι → EReal) :
    (h : EReal) * ∑ k ∈ s, f k = ∑ k ∈ s, (h : EReal) * f k := by
  classical
  induction s using Finset.induction_on with
  | empty => simp
  | insert a s ha ih =>
    rw [Finset.sum_insert ha, Finset.sum_insert ha,
      EReal.left_distrib_of_nonneg_of_ne_top (by exact_mod_cast hh) (EReal.coe_ne_top h), ih]

/-- Off zero the ideal quotient is the product with the inverse. -/
theorem div_of_ne_zero (x a : EReal) (ha : a ≠ 0) : Ideal.div x a = x * a⁻¹ := by
  rw [Ideal.div, if_neg ha]

/-- A value clamped below by one is not zero. -/
theorem max_one_ne_zero (x : EReal) : max x 1 ≠ 0 :=
  ne_of_gt (lt_of_lt_of_le zero_lt_one (le_max_right x 1))

end Cert.Lib.ScaleSum

end
-- ==== Proof.LibMeanScale.lean ====
/-
  Dividing the rows of a matrix by a per-row divisor that is never zero, two ways, and the splats of the words for one
  and zero. (The case in mind: a matrix of per-node sums divided by the clamped in-degree of its row — a mean.)

  Node P has a degree d(P) clamped below at one, so d(P) is never zero. One program forms the reciprocal 1 / d(P) once,
  lays the vector of reciprocals out as a column by a reshape, repeats the column along the rows and MULTIPLIES the
  matrix of sums by it; the other lays d itself out as a column by a broadcast, repeats it and DIVIDES the matrix of sums
  by it. On the extended reals the quotient by a divisor that is not zero is the product with the inverse of the
  divisor, and 1 / d is 1 · d⁻¹ = d⁻¹, so entry (P, q) of both is S(P, q) · d(P)⁻¹ — for every extended real S(P, q),
  the infinities included: nothing is cancelled and nothing is distributed.
-/
import proofs.«110755_j4655744549232_1_alg».proof.Proof.LibReshapeColumn
import proofs.«110755_j4655744549232_1_alg».proof.Proof.LibScaleSum
import Idealize.ShloMosaic.Lib.Pipeline.Value
import Idealize.ShloMosaic.PureOps.Ideal.Laws

noncomputable section

namespace Cert.Lib.MeanScale

open Idealize.ShloMosaic Idealize.ShloMosaic.ValueIdx

/-- The matrix of sums times the repeated column of reciprocals of the divisors is the matrix of sums divided by the
    repeated column of divisors, when no divisor is zero and the numerators of the reciprocals are all one. -/
theorem mul_recip_eq_div {n b : ℕ} (hn : n ≠ 1)
    (S : FVec Ideal ⟨2, ![n, b]⟩ .f32) (ones d : FVec Ideal ⟨1, ![n]⟩ .f32)
    (h1 : ∀ i, ones i = 1) (hd : ∀ i, d i ≠ 0)
    (hcast : (⟨1, ![n]⟩ : Shape).ShapeCasts ⟨2, ![n, 1]⟩)
    (hcol : (⟨1, ![n]⟩ : Shape).BroadcastsInDim ⟨2, ![n, 1]⟩ ![0])
    (hspread : (⟨2, ![n, 1]⟩ : Shape).BroadcastsInDim ⟨2, ![n, b]⟩ ![0, 1]) :
    (mulf S (broadcastInDim ⟨2, ![n, b]⟩ ![0, 1] hspread (shapeCast ⟨2, ![n, 1]⟩ (Host.divf ones d) hcast))
        : (⟨2, ![n, b]⟩ : Shape).Idx → EReal)
      = Host.divf S (broadcastInDim ⟨2, ![n, b]⟩ ![0, 1] hspread (broadcastInDim ⟨2, ![n, 1]⟩ ![0] hcol d)) := by
  funext i
  obtain ⟨P, q, rfl⟩ := Cert.Lib.ReshapeColumn.exists_ix2 i
  show S (ix2 P q) * broadcastInDim ⟨2, ![n, b]⟩ ![0, 1] hspread (shapeCast ⟨2, ![n, 1]⟩ (Host.divf ones d) hcast) (ix2 P q)
    = Ideal.div (S (ix2 P q)) (broadcastInDim ⟨2, ![n, b]⟩ ![0, 1] hspread (broadcastInDim ⟨2, ![n, 1]⟩ ![0] hcol d) (ix2 P q))
  rw [Cert.Lib.ColumnInDim.spread_apply hn, Cert.Lib.ColumnInDim.spread_apply hn,
    Cert.Keepdims.shapeCast_a_a1_apply, Cert.Lib.ColumnInDim.column_apply hn]
  show S (ix2 P q) * Ideal.div (ones (ix1 P)) (d (ix1 P)) = Ideal.div (S (ix2 P q)) (d (ix1 P))
  rw [h1, Cert.Lib.ScaleSum.div_of_ne_zero _ _ (hd _), Cert.Lib.ScaleSum.div_of_ne_zero _ _ (hd _), one_mul]

/-! ## Splats of the words for one and for zero -/

/-- The single-precision word 0x3F800000 is the number one. -/
theorem one_word : Ideal.ofBits .f32 0x3F800000#32 = 1 := by
  simp [Ideal.ofBits, Ideal.ieee, -EReal.coe_mul]; norm_num

/-- A scalar one repeated over any shape is one at every index. -/
theorem splat_one {t : Shape} (h : (⟨0, ![]⟩ : Shape).BroadcastsInDim t ![]) (i : t.Idx) :
    broadcastInDim t ![] h (constant (F := Ideal) ⟨0, ![]⟩ .f32 0x3F800000#32) i = 1 := by
  rw [broadcastInDim_apply _ h _ i (fun a => a.elim0) (fun a => a.elim0)]
  exact one_word

/-- A scalar zero repeated over any shape is zero at every index. -/
theorem splat_zero {t : Shape} (h : (⟨0, ![]⟩ : Shape).BroadcastsInDim t ![]) (i : t.Idx) :
    broadcastInDim t ![] h (constant (F := Ideal) ⟨0, ![]⟩ .f32 0x00000000#32) i = 0 := by
  rw [broadcastInDim_apply _ h _ i (fun a => a.elim0) (fun a => a.elim0)]
  exact Ideal.ofBits_zero_f32

/-- A value clamped below by the splat of one is not zero. -/
theorem clamp_ne_zero {t : Shape} (X : FVec Ideal t .f32) (h : (⟨0, ![]⟩ : Shape).BroadcastsInDim t ![]) (i : t.Idx) :
    (maximumf X (broadcastInDim t ![] h (constant (F := Ideal) ⟨0, ![]⟩ .f32 0x3F800000#32)) : t.Idx → EReal) i ≠ 0 := by
  show max (X i) (broadcastInDim t ![] h (constant (F := Ideal) ⟨0, ![]⟩ .f32 0x3F800000#32) i) ≠ 0
  rw [splat_one]
  exact Cert.Lib.ScaleSum.max_one_ne_zero _

end Cert.Lib.MeanScale

end
-- ==== Proof.KernelValue.lean ====
/-
  The two-region program's result as one function of its six arguments.

  Follow the result array back through the program. The second region leaves in it the layer of the arrays it finds:
  the first region's result H, the second aggregate, the second weights. The second aggregate is written by the host
  operations between the regions: the per-node sums of the gated messages read from H, times the repeated column of
  reciprocals of the clamped degrees. Those operations read the source and destination rows, the gates and the column of
  reciprocals from buffers the first stretch of host operations wrote and the first region did not touch. H itself is
  the layer of the first argument, the first aggregate (the same sums and the same column, from the first argument) and
  the first weights. So the result is two rounds in which the aggregate is "sums times reciprocal of the degree"; by
  the law of the mean (a product with the reciprocal of a divisor that is not zero is the quotient) each round is the
  specification's round, where the aggregate is "sums divided by the degree".
-/
import proofs.«110755_j4655744549232_1_alg».proof.Proof.Gen.KernelIdeal.Frame
import proofs.«110755_j4655744549232_1_alg».proof.Proof.Gen.ReferenceIdeal
import proofs.«110755_j4655744549232_1_alg».proof.Proof.RegionValue
import proofs.«110755_j4655744549232_1_alg».proof.Proof.Spec
import proofs.«110755_j4655744549232_1_alg».proof.Proof.LibMeanScale
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen Cert.KernelIdeal.RegionValue
open Cert.Gnn

/-! ## The aggregate as the program forms it, and the law of the mean -/

/-- The reciprocals of the clamped degrees, laid out as a column by a reshape. -/
def recipCol (dst : IVec S640000 32) : FVec Ideal S50000x1 .f32 :=
  shapeCast S50000x1
    (Host.divf (broadcastInDim S50000 ![] bcast_S_S50000 (constant (F := Ideal) S_ .f32 0x3F800000#32)) (degClamp dst))
    shapeCasts_S50000_S50000x1

/-- The per-node sums times the repeated column of reciprocals. -/
def scaledAgg (feat : FVec Ideal S50000x128 .f32) (src dst : IVec S640000 32) (g : FVec Ideal S640000x128 .f32) :
    FVec Ideal S50000x128 .f32 :=
  mulf (segSum feat src dst g) (broadcastInDim S50000x128 ![0, 1] bcast_S50000x1_S50000x128_0_1 (recipCol dst))

/-- Sums times the reciprocal of the clamped degree are sums divided by the clamped degree. -/
theorem scaledAgg_eq (feat : FVec Ideal S50000x128 .f32) (src dst : IVec S640000 32) (g : FVec Ideal S640000x128 .f32) :
    scaledAgg feat src dst g = meanAgg feat src dst g := by
  unfold scaledAgg recipCol meanAgg
  exact Cert.Lib.MeanScale.mul_recip_eq_div (n := 50000) (b := 128) (by decide) (segSum feat src dst g) _ (degClamp dst)
    (fun i => Cert.Lib.MeanScale.splat_one _ i) (fun i => Cert.Lib.MeanScale.clamp_ne_zero _ _ i) shapeCasts_S50000_S50000x1
    Cert.ReferenceIdeal.Facts₀.bcast_S50000_S50000x1_0 bcast_S50000x1_S50000x128_0_1

/-- A region's layer on the program's aggregate is the specification's round. -/
theorem combine_eq_layer (X : FVec Ideal S50000x128 .f32) (src dst : IVec S640000 32) (g : FVec Ideal S640000x128 .f32)
    (W : FVec Ideal S128x128 .f32) : combine X (scaledAgg X src dst g) W = layer X src dst g W := by
  rw [scaledAgg_eq]
  unfold combine layer
  exact (Cert.Mlp.hostHidden _ rfl none _ W _ (fun i => Cert.Lib.MeanScale.splat_zero _ i)).symm

/-! ## The buffers at the segment boundaries -/

variable (m : (ℓ : Loc nD τ sig) → Buf (Elt Ideal) ℓ) (ρ : Dev nD → PrngReg) (c : Dev nD)

/-- After the first stretch of host operations: the source rows. -/
theorem W1_v1 : (W1 m ρ c (Proc.devRef .tc main_v1) : S640000.Idx → BitVec 32)
    = srcRow (m ((c : Thread nD τ).loc main_arg4)) := by
  dsimp only [W1, hostOps0]; after_results; all_goals rfl

/-- The destination rows. -/
theorem W1_v3 : (W1 m ρ c (Proc.devRef .tc main_v3) : S640000.Idx → BitVec 32)
    = dstRow (m ((c : Thread nD τ).loc main_arg4)) := by
  dsimp only [W1, hostOps0]; after_results; all_goals rfl

/-- The gates. -/
theorem W1_v10 : (W1 m ρ c (Proc.devRef .tc main_v10) : S640000x128.Idx → EReal)
    = gate (m ((c : Thread nD τ).loc main_arg1)) (m ((c : Thread nD τ).loc main_arg5)) := by
  dsimp only [W1, hostOps0]; after_results; all_goals rfl

/-- The column of reciprocals of the clamped degrees. -/
theorem W1_v19 : (W1 m ρ c (Proc.devRef .tc main_v19) : S50000x1.Idx → EReal)
    = recipCol (dstRow (m ((c : Thread nD τ).loc main_arg4))) := by
  dsimp only [W1, hostOps0]; after_results; all_goals rfl

/-- The first aggregate. -/
theorem W1_v32 : (W1 m ρ c (Proc.devRef .tc main_v32) : S50000x128.Idx → EReal)
    = scaledAgg (m ((c : Thread nD τ).loc main_arg0)) (srcRow (m ((c : Thread nD τ).loc main_arg4)))
        (dstRow (m ((c : Thread nD τ).loc main_arg4)))
        (gate (m ((c : Thread nD τ).loc main_arg1)) (m ((c : Thread nD τ).loc main_arg5))) := by
  dsimp only [W1, hostOps0]; after_results_simp <;> rfl

/-- No host operation writes an argument. -/
theorem W1_arg0 : W1 m ρ c (Proc.devRef .tc main_arg0) = m ((c : Thread nD τ).loc main_arg0) := by
  dsimp only [W1, hostOps0]; after_results; all_goals rfl
theorem W1_arg2 : W1 m ρ c (Proc.devRef .tc main_arg2) = m ((c : Thread nD τ).loc main_arg2) := by
  dsimp only [W1, hostOps0]; after_results; all_goals rfl
theorem W1_arg3 : W1 m ρ c (Proc.devRef .tc main_arg3) = m ((c : Thread nD τ).loc main_arg3) := by
  dsimp only [W1, hostOps0]; after_results; all_goals rfl

/-! ### Across the first region -/

/-- The source rows, the destination rows and the gates of the program's arguments. -/
abbrev src : IVec S640000 32 := srcRow (m ((c : Thread nD τ).loc main_arg4))
abbrev dst : IVec S640000 32 := dstRow (m ((c : Thread nD τ).loc main_arg4))
abbrev gates : FVec Ideal S640000x128 .f32 :=
  gate (m ((c : Thread nD τ).loc main_arg1)) (m ((c : Thread nD τ).loc main_arg5))

/-- The first round's result: the layer of the first argument, its aggregate and the first weights. -/
def H : FVec Ideal S50000x128 .f32 :=
  combine (m ((c : Thread nD τ).loc main_arg0))
    (scaledAgg (m ((c : Thread nD τ).loc main_arg0)) (src m c) (dst m c) (gates m c)) (m ((c : Thread nD τ).loc main_arg2))

/-- The first region's arrays are the first argument, the first aggregate, the first weights and its result: it leaves
    every other buffer as it found it. -/
theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_v10 : W2 m ρ c (Proc.devRef .tc main_v10) = W1 m ρ c (Proc.devRef .tc main_v10) := W2_of_ne m ρ c main_v10 (by decide)
theorem W2_v19 : W2 m ρ c (Proc.devRef .tc main_v19) = W1 m ρ c (Proc.devRef .tc main_v19) := W2_of_ne m ρ c main_v19 (by decide)
theorem W2_arg3 : W2 m ρ c (Proc.devRef .tc main_arg3) = W1 m ρ c (Proc.devRef .tc main_arg3) := W2_of_ne m ρ c main_arg3 (by decide)

/-- Its result array ends at the first round's result. -/
theorem W2_v33 : (W2 m ρ c (Proc.devRef .tc main_v33) : S50000x128.Idx → EReal) = H m c := by
  refine (W2_arr m ρ c 3).trans ((final0 (V1 m ρ) c).trans ?_)
  show combine (W1 m ρ c (Proc.devRef .tc main_arg0)) (W1 m ρ c (Proc.devRef .tc main_v32))
    (W1 m ρ c (Proc.devRef .tc main_arg2)) = _
  rw [W1_arg0, W1_v32, W1_arg2]
  rfl

/-! ### The second stretch of host operations -/

/-- It writes neither the first round's result nor the second weights. -/
theorem W3_v33 : W3 m ρ c (Proc.devRef .tc main_v33) = W2 m ρ c (Proc.devRef .tc main_v33) := by
  dsimp only [W3, hostOps1]; after_results; all_goals rfl
theorem W3_arg3 : W3 m ρ c (Proc.devRef .tc main_arg3) = W2 m ρ c (Proc.devRef .tc main_arg3) := by
  dsimp only [W3, hostOps1]; after_results; all_goals rfl

/-- The second aggregate, from the buffers the stretch finds. -/
theorem W3_v46_of_W2 : (W3 m ρ c (Proc.devRef .tc main_v46) : S50000x128.Idx → EReal)
    = mulf (segSum (W2 m ρ c (Proc.devRef .tc main_v33)) (W2 m ρ c (Proc.devRef .tc main_v1))
          (W2 m ρ c (Proc.devRef .tc main_v3)) (W2 m ρ c (Proc.devRef .tc main_v10)))
        (broadcastInDim S50000x128 ![0, 1] bcast_S50000x1_S50000x128_0_1 (W2 m ρ c (Proc.devRef .tc main_v19))) := by
  dsimp only [W3, hostOps1]; after_results_simp <;> rfl

/-- The second aggregate is the program's aggregate of the first round's result. -/
theorem W3_v46 : (W3 m ρ c (Proc.devRef .tc main_v46) : S50000x128.Idx → EReal)
    = scaledAgg (H m c) (src m c) (dst m c) (gates m c) := by
  rw [W3_v46_of_W2, W2_v33, W2_v1, W2_v3, W2_v10, W2_v19, W1_v1, W1_v3, W1_v10, W1_v19]
  rfl

/-! ### The result -/

/-- The result array after the run is two rounds of gated mean aggregation of the six arguments. -/
theorem result_eq : (W4 m ρ c (Proc.devRef .tc main_v47) : S50000x128.Idx → EReal)
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W4_arr m ρ c 3).trans ((final1 (V3 m ρ) c).trans ?_)
  show combine (W3 m ρ c (Proc.devRef .tc main_v33)) (W3 m ρ c (Proc.devRef .tc main_v46))
    (W3 m ρ c (Proc.devRef .tc main_arg3)) = _
  rw [W3_v46, W3_v33, W2_v33, W3_arg3, W2_arg3, W1_arg3, combine_eq_layer]
  unfold H
  rw [combine_eq_layer]
  rfl

end Cert.KernelIdeal.HostValue

end
-- ==== Proof.lean ====
/-
  Two rounds of relation-gated mean aggregation over a graph (50000 nodes, 640000 edges, 128 features, six relation
  types): a program that forms each round's aggregate on the host and its dense layer in a row-blocked pipelined
  kernel, against a host program that does everything on the host.

  Both programs gather, per edge, the source node's features and the relation's gate, multiply them, and sum the
  messages into their destination nodes by the same gather and scatter-add operations with the same index
  arithmetic; both count the in-degrees by the same scatter-add of ones and clamp them below at one. They differ in
  two places. The host program divides the sums by the clamped degree; the kernel's program multiplies them by the
  reciprocal 1 / degree, computed once and laid out as a column by a reshape instead of a broadcast. And the host
  program forms relu((x + agg) · W) as one matrix product over all 50000 rows, where the kernel forms it 5000 rows at
  a time, narrowing the factors to bf16 on the way into the matrix unit.

  On the extended reals neither difference changes a value: a quotient by a divisor that is not zero IS the product
  with the divisor's inverse, and a clamped degree is at least one (Proof/LibMeanScale.lean); a change of float format is
  the identity, the product accumulated into zeros is the plain product, and a row of a product depends on that row
  of the left factor only, so ten row blocks of the layer are the layer (Proof/RegionValue.lean). No step cancels
  or distributes, so the inputs' finiteness is never used.

  The modules: Proof/Spec.lean states the two rounds as one function `G` of the six arguments;
  Proof/RefValue.lean reads the host program's result as `G`; Proof/KernelRun.lean runs the two-region program keeping
  its result array; Proof/RegionValue.lean reads what each region leaves; Proof/KernelValue.lean follows the result
  back through the host operations and the regions to `G`.
-/
import proofs.«110755_j4655744549232_1_alg».proof.Defs
import proofs.«110755_j4655744549232_1_alg».proof.Proof.Gen.Kernel
import proofs.«110755_j4655744549232_1_alg».proof.Proof.Gen.Kernel.Skeleton
import proofs.«110755_j4655744549232_1_alg».proof.Proof.Gen.Kernel.Launch
import proofs.«110755_j4655744549232_1_alg».proof.Proof.Gen.Kernel.Points
import proofs.«110755_j4655744549232_1_alg».proof.Proof.Gen.Kernel.Frame
import proofs.«110755_j4655744549232_1_alg».proof.Proof.Gen.KernelIdeal
import proofs.«110755_j4655744549232_1_alg».proof.Proof.Gen.KernelIdeal.Skeleton
import proofs.«110755_j4655744549232_1_alg».proof.Proof.Gen.KernelIdeal.Launch
import proofs.«110755_j4655744549232_1_alg».proof.Proof.Gen.KernelIdeal.Points
import proofs.«110755_j4655744549232_1_alg».proof.Proof.Gen.KernelIdeal.Frame
import proofs.«110755_j4655744549232_1_alg».proof.Proof.Gen.ReferenceIdeal
import proofs.«110755_j4655744549232_1_alg».proof.Proof.Gen.ReferenceIdeal.Run
import proofs.«110755_j4655744549232_1_alg».proof.Proof.Gen.ReferenceIdeal.Read
import proofs.«110755_j4655744549232_1_alg».proof.Proof.Gen.Pre_finite_inputs
import proofs.«110755_j4655744549232_1_alg».proof.Proof.RefValue
import proofs.«110755_j4655744549232_1_alg».proof.Proof.KernelRun
import proofs.«110755_j4655744549232_1_alg».proof.Proof.KernelValue
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does the program read on the extended reals. -/
theorem frame_kernelIdeal : Cert.frame_KernelIdeal := fun m ρ _ => Cert.KernelIdeal.Gen.frame m ρ

/-- The host program's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with their result array at `G` of the arguments:
    the two-region program by following its result back through its segments, the host program by unfolding. -/
theorem algebraic : Cert.algebraic_KernelIdeal_ReferenceIdeal := by
  intro m ρ m' ρ' _ hagree
  refine ⟨fun c => Cert.Gnn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HostValue.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.Gnn.RefValue.res_eq m' c).trans ?_
    obtain ⟨e0, e1, e2, e3, e4, e5⟩ := hagree c
    rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
